-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S3 : Shape := ⟨1, ![3]⟩
abbrev S1600000 : Shape := ⟨1, ![1600000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S50000x32 .f32) (main_arg1 : FVec F S3 .f32) (main_arg2 : IVec S1600000 32) (main_arg3 : IVec S1600000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S50000x32 : Shape := ⟨2, ![50000, 32]⟩
abbrev S3 : Shape := ⟨1, ![3]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x32 : Shape := ⟨2, ![1600000, 32]⟩
abbrev S5000x32 : Shape := ⟨2, ![5000, 32]⟩
abbrev S5000x1 : Shape := ⟨2, ![5000, 1]⟩
abbrev S1 : Shape := ⟨1, ![1]⟩
abbrev S2 : Shape := ⟨1, ![2]⟩
abbrev S1x2 : Shape := ⟨2, ![1, 2]⟩
abbrev S1x1 : Shape := ⟨2, ![1, 1]⟩

abbrev nBuf : Space → Nat
  | .hbm => 88
  | .vmem => 31
  | .smem => 0
  | _ => 0

abbrev bufTy : (tb : Table) → Fin (tcTables nBuf tb) → BufTy
  | .hbm, ⟨0, _⟩ => ⟨S50000x32, .f32⟩
  | .hbm, ⟨1, _⟩ => ⟨S3, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S3, .f32⟩
  | .hbm, ⟨6, _⟩ => ⟨S3, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x32, .f32⟩
  | .hbm, ⟨21, _⟩ => ⟨S50000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .f32⟩
  | .hbm, ⟨32, _⟩ => ⟨S50000x32, .f32⟩
  | .hbm, ⟨33, _⟩ => ⟨S1600000x1, .i32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S50000x32, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x32, .f32⟩
  | .hbm, ⟨47, _⟩ => ⟨S_, .f32⟩
  | .hbm, ⟨48, _⟩ => ⟨S50000x32, .f32⟩
  | .hbm, ⟨49, _⟩ => ⟨S1600000x1, .i32⟩
  | .hbm, ⟨50, _⟩ => ⟨S50000x32, .f32⟩
  | .hbm, ⟨51, _⟩ => ⟨S50000x32, .f32⟩
  | .hbm, ⟨52, _⟩ => ⟨S50000x32, .f32⟩
  | .hbm, ⟨53, _⟩ => ⟨S50000x32, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x32, .f32⟩
  | .hbm, ⟨63, _⟩ => ⟨S_, .f32⟩
  | .hbm, ⟨64, _⟩ => ⟨S50000x32, .f32⟩
  | .hbm, ⟨65, _⟩ => ⟨S1600000x1, .i32⟩
  | .hbm, ⟨66, _⟩ => ⟨S50000x32, .f32⟩
  | .hbm, ⟨67, _⟩ => ⟨S50000x32, .f32⟩
  | .hbm, ⟨68, _⟩ => ⟨S1, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S1, .f32⟩
  | .hbm, ⟨84, _⟩ => ⟨S1, .f32⟩
  | .hbm, ⟨85, _⟩ => ⟨S2, .f32⟩
  | .hbm, ⟨86, _⟩ => ⟨S1x2, .f32⟩
  | .hbm, ⟨87, _⟩ => ⟨S50000x32, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S5000x1, .f32⟩
  | .local _ .vmem, ⟨5, _⟩ => ⟨S5000x1, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x1, .f32⟩
  | .local _ .vmem, ⟨13, _⟩ => ⟨S5000x1, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x1, .f32⟩
  | .local _ .vmem, ⟨21, _⟩ => ⟨S5000x1, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S1x2, .f32⟩
  | .local _ .vmem, ⟨29, _⟩ => ⟨S5000x32, .f32⟩
  | .local _ .vmem, ⟨30, _⟩ => ⟨S5000x32, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S3 : S_.BroadcastsInDim S3 (![] : Fin 0 → Fin S3.rank)
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  slices_S3_S1_0 : S3.Slices ![0] S1
  shapeCasts_S1_S_ : S1.ShapeCasts S_
  slices_S3_S1_1 : S3.Slices ![1] S1
  slices_S3_S1_2 : S3.Slices ![2] S1
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  scatter_S50000_S1600000x1_S1600000_n_0_0_1_wf : ScatterDims.WF S50000 S1600000x1 S1600000 [] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S50000x32.size a
  hwx0_1 : ∀ i : grid0.Coords, EltTy.bits .f32 = 32 ∨ (Rect.block (s := S50000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S50000x32.size a
  hwx1_3 : ∀ i : grid1.Coords, EltTy.bits .f32 = 32 ∨ (Rect.block (s := S50000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S50000x32.size a
  hwx2_1 : ∀ i : grid2.Coords, EltTy.bits .f32 = 32 ∨ (Rect.block (s := S50000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S50000x32.size a
  hwx3_1 : ∀ i : grid3.Coords, EltTy.bits .f32 = 32 ∨ (Rect.block (s := S50000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S50000x32.size a
  hwx3_3 : ∀ i : grid3.Coords, EltTy.bits .f32 = 32 ∨ (Rect.block (s := S50000x32) S5000x32.size (cc3_transform_3 i) (hinb3_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x32 : Shape := ⟨2, ![50000, 32]⟩
abbrev S3 : Shape := ⟨1, ![3]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x32 : Shape := ⟨2, ![1600000, 32]⟩
abbrev S1 : Shape := ⟨1, ![1]⟩

abbrev nBuf : Space → Nat
  | .hbm => 94
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S3, .f32⟩
  | .hbm, ⟨2, _⟩ => ⟨S1600000, .i32⟩
  | .hbm, ⟨3, _⟩ => ⟨S1600000, .i32⟩
  | .hbm, ⟨4, _⟩ => ⟨S_, .f32⟩
  | .hbm, ⟨5, _⟩ => ⟨S3, .f32⟩
  | .hbm, ⟨6, _⟩ => ⟨S3, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S50000, .f32⟩
  | .hbm, ⟨11, _⟩ => ⟨S1600000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x32, .f32⟩
  | .hbm, ⟨21, _⟩ => ⟨S50000x32, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x32, .f32⟩
  | .hbm, ⟨31, _⟩ => ⟨S_, .f32⟩
  | .hbm, ⟨32, _⟩ => ⟨S50000x32, .f32⟩
  | .hbm, ⟨33, _⟩ => ⟨S1600000x1, .i32⟩
  | .hbm, ⟨34, _⟩ => ⟨S50000x32, .f32⟩
  | .hbm, ⟨35, _⟩ => ⟨S50000x32, .f32⟩
  | .hbm, ⟨36, _⟩ => ⟨S50000x32, .f32⟩
  | .hbm, ⟨37, _⟩ => ⟨S50000x32, .f32⟩
  | .hbm, ⟨38, _⟩ => ⟨S50000x32, .f32⟩
  | .hbm, ⟨39, _⟩ => ⟨S50000x32, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x32, .f32⟩
  | .hbm, ⟨49, _⟩ => ⟨S_, .f32⟩
  | .hbm, ⟨50, _⟩ => ⟨S50000x32, .f32⟩
  | .hbm, ⟨51, _⟩ => ⟨S1600000x1, .i32⟩
  | .hbm, ⟨52, _⟩ => ⟨S50000x32, .f32⟩
  | .hbm, ⟨53, _⟩ => ⟨S50000x32, .f32⟩
  | .hbm, ⟨54, _⟩ => ⟨S50000x32, .f32⟩
  | .hbm, ⟨55, _⟩ => ⟨S50000x32, .f32⟩
  | .hbm, ⟨56, _⟩ => ⟨S50000x32, .f32⟩
  | .hbm, ⟨57, _⟩ => ⟨S50000x32, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x32, .f32⟩
  | .hbm, ⟨67, _⟩ => ⟨S_, .f32⟩
  | .hbm, ⟨68, _⟩ => ⟨S50000x32, .f32⟩
  | .hbm, ⟨69, _⟩ => ⟨S1600000x1, .i32⟩
  | .hbm, ⟨70, _⟩ => ⟨S50000x32, .f32⟩
  | .hbm, ⟨71, _⟩ => ⟨S50000x32, .f32⟩
  | .hbm, ⟨72, _⟩ => ⟨S50000x32, .f32⟩
  | .hbm, ⟨73, _⟩ => ⟨S50000x32, .f32⟩
  | .hbm, ⟨74, _⟩ => ⟨S1, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S50000x32, .f32⟩
  | .hbm, ⟨79, _⟩ => ⟨S50000x32, .f32⟩
  | .hbm, ⟨80, _⟩ => ⟨S1, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S50000x32, .f32⟩
  | .hbm, ⟨85, _⟩ => ⟨S50000x32, .f32⟩
  | .hbm, ⟨86, _⟩ => ⟨S50000x32, .f32⟩
  | .hbm, ⟨87, _⟩ => ⟨S1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S50000x32, .f32⟩
  | .hbm, ⟨92, _⟩ => ⟨S50000x32, .f32⟩
  | .hbm, ⟨93, _⟩ => ⟨S50000x32, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  slices_S3_S1_0 : S3.Slices ![0] S1
  shapeCasts_S1_S_ : S1.ShapeCasts S_
  slices_S3_S1_1 : S3.Slices ![1] S1
  slices_S3_S1_2 : S3.Slices ![2] S1
  scatter_S50000_S1600000x1_S1600000_n_0_0_1_wf : ScatterDims.WF S50000 S1600000x1 S1600000 [] [0] [0] 1
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf

class Facts : Prop extends Facts₀ where

variable [Facts]
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.Step0.lean ====
/-
  The first propagation step, read as a whole array.

  The first Pallas region walks ten row blocks of 5000 rows. At block `t` its body loads rows
  `5000 t … 5000 t + 4999` of the running features `p` and of the neighbour sums `a` (32 columns each)
  and the same rows of the one-column degree scaling `d`, spreads `d` across the 32 columns, and
  stores `p + 1 * (a * d)`. Nothing in this depends on which block is being written: entry
  `(r, k)` of the output is `p (r, k) + 1 * (a (r, k) * d (r, 0))` wherever row `r` lies. The ten
  blocks tile the 50000 rows, so after the region the output array IS that function of the three
  arrays the region was entered with — whatever those arrays hold.
-/
import proofs.«125538_j6124623364542_1_alg».proof.Proof.Gen.KernelIdeal.Frame
import proofs.«125538_j6124623364542_1_alg».proof.Proof.LibKeepdims
import Idealize.ShloMosaic.Lib.Pipeline.Value
import Idealize.ShloMosaic.Lib.ValueIdx

noncomputable section

namespace Cert.KernelIdeal.Bern

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

theorem off_zero : (![0, 0] : Fin 2 → Nat) = fun _ => 0 := funext fun a => by fin_cases a <;> rfl

/-- The row of the one-column scaling that entry `i` of a 32-column array reads. -/
abbrev rowOf (i : S50000x32.Idx) : S50000x1.Idx := fun a => match a with
  | ⟨0, _⟩ => ⟨(i 0).val, (i 0).isLt⟩
  | ⟨1, _⟩ => ⟨0, Nat.one_pos⟩

/-- One step on whole arrays: `p + s * (a * d)`, the scaling `d` read at the entry's row. -/
def stepArr (s : F .f32) (p a : S50000x32.Idx → Elt F .f32) (d : S50000x1.Idx → Elt F .f32) : S50000x32.Idx → Elt F .f32 :=
  fun i => FloatOps.addf (p i) (FloatOps.mulf s (FloatOps.mulf (a i) (d (rowOf i))))

/-- The same row inside a block of 5000 rows. -/
abbrev rowOfBlk (j : S5000x32.Idx) : S5000x1.Idx := fun a => match a with
  | ⟨0, _⟩ => ⟨(j 0).val, (j 0).isLt⟩
  | ⟨1, _⟩ => ⟨0, Nat.one_pos⟩

/-- What the first region's body stores, entry by entry of its block. -/
theorem pay0_fun (x0 x1 : Vec F S5000x32 .f32) (x2 : Vec F S5000x1 .f32) :
    k0_pay1 x0 x1 x2 = fun j => FloatOps.addf (x0 j) (FloatOps.mulf (Scalar.ofBits .f32 0x3F800000#32) (FloatOps.mulf (x1 j) (x2 (rowOfBlk j)))) := by
  funext j
  obtain ⟨p, q, rfl⟩ : ∃ (p : Fin 5000) (q : Fin 32), j = ix2 p q := ⟨j 0, j 1, eq_ix2 j⟩
  unfold k0_pay1
  show FloatOps.addf (x0 (ix2 p q)) (FloatOps.mulf (Scalar.ofBits .f32 0x3F800000#32)
    (FloatOps.mulf (shapeCast S5000x32 x1 shapeCasts_S5000x32_S5000x32 (ix2 p q))
      (broadcastTo S5000x32 (shapeCast S5000x1 x2 shapeCasts_S5000x1_S5000x1) broadcasts_S5000x1_S5000x32 (ix2 p q)))) = _
  rw [shapeCast_self, shapeCast_self, broadcastTo_a1_ab_apply]
  have e : rowOfBlk (ix2 p q) = ix2 p (0 : Fin 1) := funext fun a => match a with
    | ⟨0, _⟩ => rfl
    | ⟨1, _⟩ => rfl
  rw [e]

/-! ## From the ten blocks to the array -/

variable (V : (c : Dev nD) → (b : Ref sig .tc) → Buf (Elt F) ((c : Thread nD τ).loc b))

/-- The printed index maps, decided over the ten points: the three input blocks sit at the output block's row
    offset, in column block 0, and the output's row-block index is the point's own number. -/
theorem idx_facts0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Every one of the ten row blocks is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- What point `t` writes back is block `t` of the step applied to the three arrays the region was entered with. -/
theorem flushed0_eq (c : Dev nD) (t : Fin cfg0.N) :
    (dat0 V c).flushed 3 t = ((cfg0.win 3).blk t).view.read (Elt F)
      (stepArr (Scalar.ofBits .f32 0x3F800000#32) (V c main_arg0) (V c main_v21) (V c main_v9)) := by
  show (cfg0.win 3).cut (grid0.coords t) ((dat0 V c).after 3 t) = _
  rw [after0_3]
  unfold out0_3
  rw [View.canon_unit_zero off_zero]
  simp only [View.ld_unit_zero (S := S5000x32) off_zero, View.ld_unit_zero (S := S5000x1) off_zero]
  rw [pay0_fun]
  obtain ⟨e0, e1, e2, e3, e4, e5, e6, e7⟩ := idx_facts0 t
  funext j
  show FloatOps.addf (V c main_arg0 (((cfg0.win 0).blk t).view.emb j))
      (FloatOps.mulf (Scalar.ofBits .f32 0x3F800000#32)
        (FloatOps.mulf (V c main_v21 (((cfg0.win 1).blk t).view.emb j)) (V c main_v9 (((cfg0.win 2).blk t).view.emb (rowOfBlk j)))))
    = FloatOps.addf (V c main_arg0 (((cfg0.win 3).blk t).view.emb j))
      (FloatOps.mulf (Scalar.ofBits .f32 0x3F800000#32)
        (FloatOps.mulf (V c main_v21 (((cfg0.win 3).blk t).view.emb j)) (V c main_v9 (rowOf (((cfg0.win 3).blk t).view.emb j)))))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 32 + 1 * (j 1).val = win0_3.index t (1 : Fin 2) * 32 + 1 * (j 1).val; omega
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 32 + 1 * (j 1).val = win0_3.index t (1 : Fin 2) * 32 + 1 * (j 1).val; omega
  have h2 : ((cfg0.win 2).blk t).view.emb (rowOfBlk j) = rowOf (((cfg0.win 3).blk t).view.emb j) := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  rw [h0, h1, h2]

/-- An index of the output array is in point `t`'s block iff each coordinate is in the block's range. -/
theorem mem_blk0 (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v22).slice (win0_3.rect t)).set ↔ _
  rw [View.set_slice_whole, Rect.mem_set_unit]
  exact Iff.rfl

/-- The ten row blocks cover the array: row `r` lies in block `r / 5000`. -/
theorem cover0 (i : S50000x32.Idx) : ∃ t : Fin cfg0.N, (cfg0.win 3).flush t = true ∧ i ∈ ((cfg0.win 3).blk t).view.set := by
  have hi0 : (i 0).val < 50000 := (i 0).isLt
  have hi1 : (i 1).val < 32 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- After the first region its output array is one propagation step of the arrays it was entered with. -/
theorem value0 (c : Dev nD) : (dat0 V c).arrAt 3 cfg0.N
    = stepArr (Scalar.ofBits .f32 0x3F800000#32) (V c main_arg0) (V c main_v21) (V c main_v9) :=
  (dat0 V c).arrAt_eq_of_cover 3 _ (fun t _ => flushed0_eq V c t) cover0

end Cert.KernelIdeal.Bern

end
-- ==== Proof.Step1.lean ====
/-
  The second propagation step, read as a whole array.

  The second Pallas region is the first one again on other arrays: at row block `t` it stores
  `p + 1 * (a * d)` of rows `5000 t … 5000 t + 4999` of the first iterate `p`, of the neighbour sums `a`
  gathered from it, and of the same one-column scaling `d` spread over the 32 columns. The ten
  blocks tile the rows, so the output array is that function of the three arrays at entry.
-/
import proofs.«125538_j6124623364542_1_alg».proof.Proof.Step0

noncomputable section

namespace Cert.KernelIdeal.Bern

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- What this region's body stores, entry by entry of its block. -/
theorem pay1_fun (x0 x1 : Vec F S5000x32 .f32) (x2 : Vec F S5000x1 .f32) :
    k1_pay1 x0 x1 x2 = fun j => FloatOps.addf (x0 j) (FloatOps.mulf (Scalar.ofBits .f32 0x3F800000#32) (FloatOps.mulf (x1 j) (x2 (rowOfBlk j)))) := by
  funext j
  obtain ⟨p, q, rfl⟩ : ∃ (p : Fin 5000) (q : Fin 32), j = ix2 p q := ⟨j 0, j 1, eq_ix2 j⟩
  unfold k1_pay1
  show FloatOps.addf (shapeCast S5000x32 x0 shapeCasts_S5000x32_S5000x32 (ix2 p q)) (FloatOps.mulf (Scalar.ofBits .f32 0x3F800000#32)
    (FloatOps.mulf (shapeCast S5000x32 x1 shapeCasts_S5000x32_S5000x32 (ix2 p q))
      (broadcastTo S5000x32 (shapeCast S5000x1 x2 shapeCasts_S5000x1_S5000x1) broadcasts_S5000x1_S5000x32 (ix2 p q)))) = _
  rw [shapeCast_self, shapeCast_self, shapeCast_self, broadcastTo_a1_ab_apply]
  have e : rowOfBlk (ix2 p q) = ix2 p (0 : Fin 1) := funext fun a => match a with
    | ⟨0, _⟩ => rfl
    | ⟨1, _⟩ => rfl
  rw [e]

/-! ## From the ten blocks to the array -/

variable (V : (c : Dev nD) → (b : Ref sig .tc) → Buf (Elt F) ((c : Thread nD τ).loc b))

/-- The printed index maps, decided over the ten points: the three input blocks sit at the output block's row
    offset, in column block 0, and the output's row-block index is the point's own number. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = win1_3.index t (0 : Fin 2)
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of the step applied to the three arrays the region was entered with. -/
theorem flushed1_eq (c : Dev nD) (t : Fin cfg1.N) :
    (dat1 V c).flushed 3 t = ((cfg1.win 3).blk t).view.read (Elt F)
      (stepArr (Scalar.ofBits .f32 0x3F800000#32) (V c main_v22) (V c main_v34) (V c main_v9)) := by
  show (cfg1.win 3).cut (grid1.coords t) ((dat1 V c).after 3 t) = _
  rw [after1_3]
  unfold out1_3
  rw [View.canon_unit_zero off_zero]
  simp only [View.ld_unit_zero (S := S5000x32) off_zero, View.ld_unit_zero (S := S5000x1) off_zero]
  rw [pay1_fun]
  obtain ⟨e0, e1, e2, e3, e4, e5, e6, e7⟩ := idx_facts1 t
  funext j
  show FloatOps.addf (V c main_v22 (((cfg1.win 0).blk t).view.emb j))
      (FloatOps.mulf (Scalar.ofBits .f32 0x3F800000#32)
        (FloatOps.mulf (V c main_v34 (((cfg1.win 1).blk t).view.emb j)) (V c main_v9 (((cfg1.win 2).blk t).view.emb (rowOfBlk j)))))
    = FloatOps.addf (V c main_v22 (((cfg1.win 3).blk t).view.emb j))
      (FloatOps.mulf (Scalar.ofBits .f32 0x3F800000#32)
        (FloatOps.mulf (V c main_v34 (((cfg1.win 3).blk t).view.emb j)) (V c main_v9 (rowOf (((cfg1.win 3).blk t).view.emb j)))))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 32 + 1 * (j 1).val = win1_3.index t (1 : Fin 2) * 32 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 32 + 1 * (j 1).val = win1_3.index t (1 : Fin 2) * 32 + 1 * (j 1).val; omega
  have h2 : ((cfg1.win 2).blk t).view.emb (rowOfBlk j) = rowOf (((cfg1.win 3).blk t).view.emb j) := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  rw [h0, h1, h2]

/-- An index of the output array is in point `t`'s block iff each coordinate is in the block's range. -/
theorem mem_blk1 (t : Fin cfg1.N) (i : S50000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v35).slice (win1_3.rect t)).set ↔ _
  rw [View.set_slice_whole, Rect.mem_set_unit]
  exact Iff.rfl

/-- The ten row blocks cover the array: row `r` lies in block `r / 5000`. -/
theorem cover1 (i : S50000x32.Idx) : ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After this region its output array is one step of the arrays it was entered with. -/
theorem value1 (c : Dev nD) : (dat1 V c).arrAt 3 cfg1.N
    = stepArr (Scalar.ofBits .f32 0x3F800000#32) (V c main_v22) (V c main_v34) (V c main_v9) :=
  (dat1 V c).arrAt_eq_of_cover 3 _ (fun t _ => flushed1_eq V c t) cover1

end Cert.KernelIdeal.Bern

end
-- ==== Proof.Step2.lean ====
/-
  The Laplacian step, read as a whole array.

  The third Pallas region has the shape of the first two with the multiplier `-1` in place of `1`:
  at row block `t` it stores `p + (-1) * (a * d)` of the second iterate `p`, the neighbour sums `a`
  gathered from it and the scaling `d`. Again nothing depends on the block, the ten blocks tile the
  rows, and the output array is that one function of the three arrays at entry.
-/
import proofs.«125538_j6124623364542_1_alg».proof.Proof.Step0

noncomputable section

namespace Cert.KernelIdeal.Bern

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- What this region's body stores, entry by entry of its block. -/
theorem pay2_fun (x0 x1 : Vec F S5000x32 .f32) (x2 : Vec F S5000x1 .f32) :
    k2_pay1 x0 x1 x2 = fun j => FloatOps.addf (x0 j) (FloatOps.mulf (Scalar.ofBits .f32 0xBF800000#32) (FloatOps.mulf (x1 j) (x2 (rowOfBlk j)))) := by
  funext j
  obtain ⟨p, q, rfl⟩ : ∃ (p : Fin 5000) (q : Fin 32), j = ix2 p q := ⟨j 0, j 1, eq_ix2 j⟩
  unfold k2_pay1
  show FloatOps.addf (shapeCast S5000x32 x0 shapeCasts_S5000x32_S5000x32 (ix2 p q)) (FloatOps.mulf (Scalar.ofBits .f32 0xBF800000#32)
    (FloatOps.mulf (shapeCast S5000x32 x1 shapeCasts_S5000x32_S5000x32 (ix2 p q))
      (broadcastTo S5000x32 (shapeCast S5000x1 x2 shapeCasts_S5000x1_S5000x1) broadcasts_S5000x1_S5000x32 (ix2 p q)))) = _
  rw [shapeCast_self, shapeCast_self, shapeCast_self, broadcastTo_a1_ab_apply]
  have e : rowOfBlk (ix2 p q) = ix2 p (0 : Fin 1) := funext fun a => match a with
    | ⟨0, _⟩ => rfl
    | ⟨1, _⟩ => rfl
  rw [e]

/-! ## From the ten blocks to the array -/

variable (V : (c : Dev nD) → (b : Ref sig .tc) → Buf (Elt F) ((c : Thread nD τ).loc b))

/-- The printed index maps, decided over the ten points: the three input blocks sit at the output block's row
    offset, in column block 0, and the output's row-block index is the point's own number. -/
theorem idx_facts2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = win2_3.index t (0 : Fin 2)
    ∧ win2_2.index t (1 : Fin 2) = 0
    ∧ win2_3.index t (1 : Fin 2) = 0
    ∧ win2_3.index t (0 : Fin 2) ≤ 9 :=
  (by decide +kernel : ∀ t : Fin grid2.N, _)

/-- Every one of the ten row blocks is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of the step applied to the three arrays the region was entered with. -/
theorem flushed2_eq (c : Dev nD) (t : Fin cfg2.N) :
    (dat2 V c).flushed 3 t = ((cfg2.win 3).blk t).view.read (Elt F)
      (stepArr (Scalar.ofBits .f32 0xBF800000#32) (V c main_v35) (V c main_v47) (V c main_v9)) := by
  show (cfg2.win 3).cut (grid2.coords t) ((dat2 V c).after 3 t) = _
  rw [after2_3]
  unfold out2_3
  rw [View.canon_unit_zero off_zero]
  simp only [View.ld_unit_zero (S := S5000x32) off_zero, View.ld_unit_zero (S := S5000x1) off_zero]
  rw [pay2_fun]
  obtain ⟨e0, e1, e2, e3, e4, e5, e6, e7⟩ := idx_facts2 t
  funext j
  show FloatOps.addf (V c main_v35 (((cfg2.win 0).blk t).view.emb j))
      (FloatOps.mulf (Scalar.ofBits .f32 0xBF800000#32)
        (FloatOps.mulf (V c main_v47 (((cfg2.win 1).blk t).view.emb j)) (V c main_v9 (((cfg2.win 2).blk t).view.emb (rowOfBlk j)))))
    = FloatOps.addf (V c main_v35 (((cfg2.win 3).blk t).view.emb j))
      (FloatOps.mulf (Scalar.ofBits .f32 0xBF800000#32)
        (FloatOps.mulf (V c main_v47 (((cfg2.win 3).blk t).view.emb j)) (V c main_v9 (rowOf (((cfg2.win 3).blk t).view.emb j)))))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 32 + 1 * (j 1).val = win2_3.index t (1 : Fin 2) * 32 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 32 + 1 * (j 1).val = win2_3.index t (1 : Fin 2) * 32 + 1 * (j 1).val; omega
  have h2 : ((cfg2.win 2).blk t).view.emb (rowOfBlk j) = rowOf (((cfg2.win 3).blk t).view.emb j) := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  rw [h0, h1, h2]

/-- An index of the output array is in point `t`'s block iff each coordinate is in the block's range. -/
theorem mem_blk2 (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v48).slice (win2_3.rect t)).set ↔ _
  rw [View.set_slice_whole, Rect.mem_set_unit]
  exact Iff.rfl

/-- The ten row blocks cover the array: row `r` lies in block `r / 5000`. -/
theorem cover2 (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- After this region its output array is one step of the arrays it was entered with. -/
theorem value2 (c : Dev nD) : (dat2 V c).arrAt 3 cfg2.N
    = stepArr (Scalar.ofBits .f32 0xBF800000#32) (V c main_v35) (V c main_v47) (V c main_v9) :=
  (dat2 V c).arrAt_eq_of_cover 3 _ (fun t _ => flushed2_eq V c t) cover2

end Cert.KernelIdeal.Bern

end
-- ==== Proof.Mix.lean ====
/-
  The last region, read as a whole array.

  The fourth Pallas region mixes two 50000 × 32 arrays — the second iterate `f` and the Laplacian term
  `l` — with two coefficients it finds in a 1 × 2 array `k`: at row block `t` it stores
  `k (0, 0) * f + k (0, 1) * l` of rows `5000 t … 5000 t + 4999`. Every point sees the whole coefficient
  array (its block index is (0, 0) throughout), the two big operands move with the output block,
  and the ten blocks tile the rows: the output array is `k (0, 0) * f + k (0, 1) * l`, entry by entry.
-/
import proofs.«125538_j6124623364542_1_alg».proof.Proof.Step0

noncomputable section

namespace Cert.KernelIdeal.Bern

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- The mix on whole arrays: `k (0, 0) * f + k (0, 1) * l`. -/
def mixArr (k : S1x2.Idx → Elt F .f32) (f l : S50000x32.Idx → Elt F .f32) : S50000x32.Idx → Elt F .f32 :=
  fun i => FloatOps.addf (FloatOps.mulf (k (ix2 (0 : Fin 1) (0 : Fin 2))) (f i)) (FloatOps.mulf (k (ix2 (0 : Fin 1) (1 : Fin 2))) (l i))

/-- What the last region's body stores, entry by entry of its block: the two coefficients are entries
    (0, 0) and (0, 1) of the coefficient block. -/
theorem pay3_fun (x0 : Vec F S1x2 .f32) (x1 x2 : Vec F S5000x32 .f32) :
    k3_pay1 x0 x1 x2 = fun j => FloatOps.addf (FloatOps.mulf (x0 (ix2 (0 : Fin 1) (0 : Fin 2))) (x1 j))
      (FloatOps.mulf (x0 (ix2 (0 : Fin 1) (1 : Fin 2))) (x2 j)) := by
  funext j
  unfold k3_pay1
  show FloatOps.addf
      (FloatOps.mulf (extractAt ![0, 0] (extractStridedSlice S1x1 ![0, 0] (shapeCast S1x2 x0 shapeCasts_S1x2_S1x2) slices_S1x2_o0_0_S1x1) inpos_S1x1_p0_0)
        (shapeCast S5000x32 x1 shapeCasts_S5000x32_S5000x32 j))
      (FloatOps.mulf (extractAt ![0, 0] (extractStridedSlice S1x1 ![0, 1] (shapeCast S1x2 x0 shapeCasts_S1x2_S1x2) slices_S1x2_o0_1_S1x1) inpos_S1x1_p0_0)
        (shapeCast S5000x32 x2 shapeCasts_S5000x32_S5000x32 j)) = _
  rw [shapeCast_self, shapeCast_self, shapeCast_self]
  have a0 : extractAt ![0, 0] (extractStridedSlice S1x1 ![0, 0] x0 slices_S1x2_o0_0_S1x1) inpos_S1x1_p0_0 = x0 (ix2 (0 : Fin 1) (0 : Fin 2)) :=
    congrArg x0 (funext fun a => Fin.ext (by match a with | ⟨0, _⟩ => rfl | ⟨1, _⟩ => rfl))
  have a1 : extractAt ![0, 0] (extractStridedSlice S1x1 ![0, 1] x0 slices_S1x2_o0_1_S1x1) inpos_S1x1_p0_0 = x0 (ix2 (0 : Fin 1) (1 : Fin 2)) :=
    congrArg x0 (funext fun a => Fin.ext (by match a with | ⟨0, _⟩ => rfl | ⟨1, _⟩ => rfl))
  rw [a0, a1]

/-! ## From the ten blocks to the array -/

variable (V : (c : Dev nD) → (b : Ref sig .tc) → Buf (Elt F) ((c : Thread nD τ).loc b))

/-- The printed index maps, decided over the ten points: the two big input blocks sit at the output block's row
    offset in column block 0, the coefficient block is always block (0, 0). -/
theorem idx_facts3 : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 9 :=
  (by decide +kernel : ∀ t : Fin grid3.N, _)

/-- Every one of the ten row blocks is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

/-- What point `t` writes back is block `t` of the mix of the three arrays the region was entered with. -/
theorem flushed3_eq (c : Dev nD) (t : Fin cfg3.N) :
    (dat3 V c).flushed 3 t = ((cfg3.win 3).blk t).view.read (Elt F) (mixArr (V c main_v63) (V c main_v35) (V c main_v48)) := by
  show (cfg3.win 3).cut (grid3.coords t) ((dat3 V c).after 3 t) = _
  rw [after3_3]
  unfold out3_3
  rw [View.canon_unit_zero off_zero]
  simp only [View.ld_unit_zero (S := S5000x32) off_zero, View.ld_unit_zero (S := S1x2) off_zero]
  rw [pay3_fun]
  obtain ⟨e0, e1, e2, e3, e4, e5, e6, e7⟩ := idx_facts3 t
  funext j
  show FloatOps.addf
      (FloatOps.mulf (V c main_v63 (((cfg3.win 2).blk t).view.emb (ix2 (0 : Fin 1) (0 : Fin 2)))) (V c main_v35 (((cfg3.win 0).blk t).view.emb j)))
      (FloatOps.mulf (V c main_v63 (((cfg3.win 2).blk t).view.emb (ix2 (0 : Fin 1) (1 : Fin 2)))) (V c main_v48 (((cfg3.win 1).blk t).view.emb j)))
    = FloatOps.addf
      (FloatOps.mulf (V c main_v63 (ix2 (0 : Fin 1) (0 : Fin 2))) (V c main_v35 (((cfg3.win 3).blk t).view.emb j)))
      (FloatOps.mulf (V c main_v63 (ix2 (0 : Fin 1) (1 : Fin 2))) (V c main_v48 (((cfg3.win 3).blk t).view.emb j)))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 32 + 1 * (j 1).val = win3_3.index t (1 : Fin 2) * 32 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 32 + 1 * (j 1).val = win3_3.index t (1 : Fin 2) * 32 + 1 * (j 1).val; omega
  have hk0 : ((cfg3.win 2).blk t).view.emb (ix2 (0 : Fin 1) (0 : Fin 2)) = ix2 (0 : Fin 1) (0 : Fin 2) := by
    funext a; apply Fin.ext
    match a with
    | ⟨0, _⟩ => show win3_2.index t (0 : Fin 2) * 1 + 1 * 0 = 0; omega
    | ⟨1, _⟩ => show win3_2.index t (1 : Fin 2) * 2 + 1 * 0 = 0; omega
  have hk1 : ((cfg3.win 2).blk t).view.emb (ix2 (0 : Fin 1) (1 : Fin 2)) = ix2 (0 : Fin 1) (1 : Fin 2) := by
    funext a; apply Fin.ext
    match a with
    | ⟨0, _⟩ => show win3_2.index t (0 : Fin 2) * 1 + 1 * 0 = 0; omega
    | ⟨1, _⟩ => show win3_2.index t (1 : Fin 2) * 2 + 1 * 1 = 1; omega
  rw [h0, h1, hk0, hk1]

/-- An index of the output array is in point `t`'s block iff each coordinate is in the block's range. -/
theorem mem_blk3 (t : Fin cfg3.N) (i : S50000x32.Idx) :
    i ∈ ((cfg3.win 3).blk t).view.set ↔ ∀ a : Fin 2, win3_3.index t a * S5000x32.size a ≤ (i a).val ∧ (i a).val < win3_3.index t a * S5000x32.size a + S5000x32.size a := by
  show i ∈ ((View.whole main_v64).slice (win3_3.rect t)).set ↔ _
  rw [View.set_slice_whole, Rect.mem_set_unit]
  exact Iff.rfl

/-- The ten row blocks cover the array: row `r` lies in block `r / 5000`. -/
theorem cover3 (i : S50000x32.Idx) : ∃ t : Fin cfg3.N, (cfg3.win 3).flush t = true ∧ i ∈ ((cfg3.win 3).blk t).view.set := by
  have hi0 : (i 0).val < 50000 := (i 0).isLt
  have hi1 : (i 1).val < 32 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 32 ≤ (i 1).val ∧ (i 1).val < win3_3.index t (1 : Fin 2) * 32 + 32; omega

/-- After the last region its output array is the mix of the arrays it was entered with. -/
theorem value3 (c : Dev nD) : (dat3 V c).arrAt 3 cfg3.N = mixArr (V c main_v63) (V c main_v35) (V c main_v48) :=
  (dat3 V c).arrAt_eq_of_cover 3 _ (fun t _ => flushed3_eq V c t) cover3

end Cert.KernelIdeal.Bern

end
-- ==== Proof.Scalar.lean ====
/-
  The scalar mathematics of the certificate, on the extended reals, with no program in sight.

  The kernel runs a two-step polynomial graph propagation. Writing `d` for the degree scaling of a
  node and `a` for the neighbour sum that reaches it, one propagation step is `p + a * d`; the kernel
  spells it `p + 1 * (a * d)`, and the Laplacian step `p - a * d` as `p + (-1) * (a * d)`. The result
  mixes the last iterate `f` and the Laplacian term `L` with weights built from three nonnegative
  numbers `w0 w1 w2` (a `max` against zero has been applied to them): the kernel folds the two
  weights of `L` into ONE coefficient, `(1/4) * (2 * w1 + 1 * w2)`, where the reference adds the two
  products `((1/2) * w1) * L` and `((1/4) * w2) * L` one after the other.

  On the extended reals `(a + b) * x = a * x + b * x` can fail (take `a = 1`, `b = -1`, `x = ⊤`), but it
  holds for every `x` — infinite or not — as soon as `a` and `b` are both nonnegative, and so does
  `c * (a + b) = c * a + c * b`. That is the one law that joins the two programs, and it is why the
  nonnegativity of the weights, not the finiteness of anything, is what the proof uses.
-/
import Idealize.ShloMosaic.PureOps.Ideal

noncomputable section

namespace Cert.BernLaws

open Idealize.ShloMosaic

/-! ## The float words the two programs spell, as the numbers they denote -/

theorem word_zero : Ideal.ofBits .f32 0x00000000#32 = 0 := by
  simp [Ideal.ofBits, Ideal.ieee]

theorem word_one : Ideal.ofBits .f32 0x3F800000#32 = 1 := by
  simp [Ideal.ofBits, Ideal.ieee, -EReal.coe_mul]; norm_num

theorem word_neg_one : Ideal.ofBits .f32 0xBF800000#32 = -1 := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_quarter : Ideal.ofBits .f32 0x3E800000#32 = ((1 / 4 : ℝ) : EReal) := by
  simp [Ideal.ofBits, Ideal.ieee, -EReal.coe_mul]; norm_num

/-! ## The two propagation steps -/

/-- A propagation step: multiplying the scaled neighbour sum by one changes nothing. -/
theorem step_add (p a d : EReal) : p + 1 * (a * d) = p + a * d := by
  rw [one_mul]

/-- The Laplacian step: adding minus one times a number is subtracting it. -/
theorem step_sub (p a d : EReal) : p + (-1) * (a * d) = p - a * d := by
  rw [neg_one_mul, sub_eq_add_neg]

/-! ## The final mix -/

/-- The kernel's single coefficient of the Laplacian term is the sum of the reference's two:
    `(1/4) * (2 * w1 + 1 * w2) = (1/2) * w1 + (1/4) * w2` for nonnegative `w1 w2`, possibly infinite. -/
theorem coeff_split (w1 w2 : EReal) (h1 : 0 ≤ w1) (h2 : 0 ≤ w2) :
    ((1 / 4 : ℝ) : EReal) * (((2 : ℝ) : EReal) * w1 + 1 * w2)
      = ((1 / 2 : ℝ) : EReal) * w1 + ((1 / 4 : ℝ) : EReal) * w2 := by
  have h2' : (0 : EReal) ≤ ((2 : ℝ) : EReal) := by exact_mod_cast (by norm_num : (0 : ℝ) ≤ 2)
  rw [one_mul, EReal.left_distrib_of_nonneg (EReal.mul_nonneg h2' h1) h2, ← mul_assoc, ← EReal.coe_mul]
  norm_num

/-- The mix: the last iterate and the Laplacian term weighted the kernel's way (one folded
    coefficient) and the reference's way (two products added in turn) are the same extended real,
    whatever `f` and `L` are, for nonnegative weights. -/
theorem mix (w0 w1 w2 f L : EReal) (h1 : 0 ≤ w1) (h2 : 0 ≤ w2) :
    (((1 / 4 : ℝ) : EReal) * w0) * f + (((1 / 4 : ℝ) : EReal) * (((2 : ℝ) : EReal) * w1 + 1 * w2)) * L
      = ((((1 / 4 : ℝ) : EReal) * w0) * f + (((1 / 2 : ℝ) : EReal) * w1) * L)
          + (((1 / 4 : ℝ) : EReal) * w2) * L := by
  have hh : (0 : EReal) ≤ ((1 / 2 : ℝ) : EReal) := by exact_mod_cast (by norm_num : (0 : ℝ) ≤ 1 / 2)
  have hq : (0 : EReal) ≤ ((1 / 4 : ℝ) : EReal) := by exact_mod_cast (by norm_num : (0 : ℝ) ≤ 1 / 4)
  rw [coeff_split w1 w2 h1 h2,
    EReal.right_distrib_of_nonneg (EReal.mul_nonneg hh h1) (EReal.mul_nonneg hq h2), add_assoc]

end Cert.BernLaws

end
-- ==== Proof.Spec.lean ====
/-
  The words both programs are compared in.

  Both programs compute the same two things outside any Pallas region, with the very same host
  operations: the degree scaling `D` — one column, `max (indegree, 1) ^ (-1/2)`, from the edge targets —
  and, three times, a NEIGHBOUR SUM: scale an array's rows by `D`, gather the rows named by the edge
  sources, and add each gathered row into the row named by its edge target. The certificate never
  looks inside a gather or a scatter: the neighbour sum is named here once, as one function of the
  array, the scaling and the two edge lists, and the stages of the reference that are neighbour sums
  are recognised as that function by unfolding their definitions.

  The three weights are entries of `max (w, 0)`; what the proof needs of them is only that they are
  nonnegative, read here off the stages one operation at a time.
-/
import proofs.«125538_j6124623364542_1_alg».proof.Proof.Gen.ReferenceIdeal.Read
import Idealize.ShloMosaic.Lib.ValueIdx
import proofs.«125538_j6124623364542_1_alg».proof.Proof.Scalar

noncomputable section

namespace Cert.ReferenceIdeal.Bern

open Cert.ReferenceIdeal Cert.ReferenceIdeal.Gen Cert.ReferenceIdeal.Read Idealize.ShloMosaic Idealize.ShloMosaic.TcCoe Idealize.SL.Sem
open Idealize.ShloMosaic.ValueIdx

variable {F : FTy → Type} [FloatOps F]

/-- The neighbour sum of `x`: rows scaled by `d`, gathered at the edge sources, added at the edge targets. -/
def nbrSum (x : (⟨S50000x32, .f32⟩ : BufTy).Contents (Elt F)) (d : (⟨S50000x1, .f32⟩ : BufTy).Contents (Elt F))
    (src dst : (⟨S1600000, .i32⟩ : BufTy).Contents (Elt F)) : (⟨S50000x32, .f32⟩ : BufTy).Contents (Elt F) :=
  Host.scatterAdd scatter_S50000x32_S1600000x1_S1600000x32_1_0_0_1 (val_main_v19 (F := F)) (val_main_v20 (F := F) dst)
    (Host.gather gather_S50000x32_S1600000x1_S1600000x32_1_0_n_n_0_1_132
      (mulf x (broadcastInDim S50000x32 ![0, 1] bcast_S50000x1_S50000x32_0_1 d)) (val_main_v17 (F := F) src))

variable (x0 : (⟨S50000x32, .f32⟩ : BufTy).Contents (Elt F)) (x1 : (⟨S3, .f32⟩ : BufTy).Contents (Elt F))
  (x2 x3 : (⟨S1600000, .i32⟩ : BufTy).Contents (Elt F))

/-- The reference's three scatter stages are the neighbour sums of the features, of the first iterate and of
    the second iterate. -/
theorem sum0 : val_main_v21 (F := F) x0 x2 x3 = nbrSum x0 (val_main_v9 x3) x2 x3 := rfl
theorem sum1 : val_main_v36 (F := F) x0 x2 x3 = nbrSum (val_main_v24 x0 x2 x3) (val_main_v9 x3) x2 x3 := rfl
theorem sum2 : val_main_v51 (F := F) x0 x2 x3 = nbrSum (val_main_v39 x0 x2 x3) (val_main_v9 x3) x2 x3 := rfl

end Cert.ReferenceIdeal.Bern

end
-- ==== Proof.HostSide.lean ====
/-
  The kernel program's host operations between its four regions, read in the reference's words.

  Around its regions the kernel program runs the reference's own host operations: first the weights'
  `max` against zero, the degree scaling and the neighbour sum of the features; between the regions a
  neighbour sum of the region's output; before the last region the two coefficients. Each stretch is
  read here from ANY contents of the buffers it starts from, and each result is the reference's named
  stage — or the neighbour sum — of what the stretch found in its operand buffers. Nothing is
  computed: the two programs spell the same operations, so each equation holds by unfolding names.
-/
import proofs.«125538_j6124623364542_1_alg».proof.Proof.Gen.KernelIdeal.Launch
import proofs.«125538_j6124623364542_1_alg».proof.Proof.Spec
import Idealize.ShloMosaic.Lib.StableHlo.Run
import Idealize.ShloMosaic.Lib.Pipeline.Value
import Idealize.ShloMosaic.Lib.ValueIdx

noncomputable section

namespace Cert.KernelIdeal.Bern

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (W : Valuation τ sig (Elt F))

/-- The first stretch leaves `max (w, 0)` of the weights. -/
theorem relu_at : after (hostOps0 (F := F)) W (Proc.devRef .tc main_v0)
    = Cert.ReferenceIdeal.Read.val_main_v0 (W (Proc.devRef .tc main_arg1)) := by
  after_results; rfl

/-- The second stretch leaves the degree scaling of the edge targets … -/
theorem scale_at : after (hostOps0_1 (F := F)) W (Proc.devRef .tc main_v9)
    = Cert.ReferenceIdeal.Read.val_main_v9 (W (Proc.devRef .tc main_arg3)) := by
  after_results_simp <;> rfl

/-- … and the neighbour sum of the features. -/
theorem sum0_at : after (hostOps0_1 (F := F)) W (Proc.devRef .tc main_v21)
    = Cert.ReferenceIdeal.Bern.nbrSum (W (Proc.devRef .tc main_arg0)) (Cert.ReferenceIdeal.Read.val_main_v9 (W (Proc.devRef .tc main_arg3)))
        (W (Proc.devRef .tc main_arg2)) (W (Proc.devRef .tc main_arg3)) := by
  after_results_simp <;> rfl

/-- The stretch after the first region leaves the neighbour sum of that region's output. -/
theorem sum1_at : after (hostOps1 (F := F)) W (Proc.devRef .tc main_v34)
    = Cert.ReferenceIdeal.Bern.nbrSum (W (Proc.devRef .tc main_v22)) (W (Proc.devRef .tc main_v9))
        (W (Proc.devRef .tc main_arg2)) (W (Proc.devRef .tc main_arg3)) := by
  after_results_simp <;> rfl

/-- The stretch after the second region leaves the neighbour sum of that region's output. -/
theorem sum2_at : after (hostOps2 (F := F)) W (Proc.devRef .tc main_v47)
    = Cert.ReferenceIdeal.Bern.nbrSum (W (Proc.devRef .tc main_v35)) (W (Proc.devRef .tc main_v9))
        (W (Proc.devRef .tc main_arg2)) (W (Proc.devRef .tc main_arg3)) := by
  after_results_simp <;> rfl

/-! ## The two coefficients -/

/-- The first coefficient from the weights `w` (already `max`ed against zero): a quarter of the first weight. -/
def coef0 (w : (⟨S3, .f32⟩ : BufTy).Contents (Elt F)) : (⟨S_, .f32⟩ : BufTy).Contents (Elt F) :=
  mulf (constant S_ .f32 0x3E800000#32) (shapeCast S_ (extractStridedSlice S1 ![0] w slices_S3_S1_0) shapeCasts_S1_S_)

/-- The second coefficient: a quarter of twice the second weight plus once the third. -/
def coef1 (w : (⟨S3, .f32⟩ : BufTy).Contents (Elt F)) : (⟨S_, .f32⟩ : BufTy).Contents (Elt F) :=
  mulf (constant S_ .f32 0x3E800000#32)
    (addf (mulf (constant S_ .f32 0x40000000#32) (shapeCast S_ (extractStridedSlice S1 ![1] w slices_S3_S1_1) shapeCasts_S1_S_))
      (mulf (constant S_ .f32 0x3F800000#32) (shapeCast S_ (extractStridedSlice S1 ![2] w slices_S3_S1_2) shapeCasts_S1_S_)))

/-- Two scalars laid side by side as a 1 × 2 array: each spread to one entry, the two joined, the pair re-laid as a row. -/
def coefArr (a b : (⟨S_, .f32⟩ : BufTy).Contents (Elt F)) : (⟨S1x2, .f32⟩ : BufTy).Contents (Elt F) :=
  shapeCast S1x2 (concatenate S2 0 [⟨S1, broadcastInDim S1 ![] bcast_S_S1 a⟩, ⟨S1, broadcastInDim S1 ![] bcast_S_S1 b⟩] concatenates_S1_S1_S2_d0) shapeCasts_S2_S1x2

/-- The stretch before the last region leaves the two coefficients, side by side, of the weights it finds. -/
theorem coef_at : after (hostOps3 (F := F)) W (Proc.devRef .tc main_v63)
    = coefArr (coef0 (W (Proc.devRef .tc main_v0))) (coef1 (W (Proc.devRef .tc main_v0))) := by
  after_results_simp <;> rfl

/-- Entry (0, 0) of the pair is the first scalar. -/
theorem coefArr_left (a b : (⟨S_, .f32⟩ : BufTy).Contents (Elt F)) : coefArr a b (ix2 (0 : Fin 1) (0 : Fin 2)) = a ix0 := by
  unfold coefArr
  refine (shapeCast_apply _ shapeCasts_S2_S1x2 (ix2 (0 : Fin 1) (0 : Fin 2)) (ix1 (0 : Fin 2))
    (by rw [Shape.rowMajor_val_two, Shape.rowMajor_val_one]; rfl)).trans ?_
  refine (concatenate_pair_apply_left (t := S2) (s₁ := S1) (s₂ := S1) (0 : Fin 1) _ _ concatenates_S1_S1_S2_d0 (ix1 (0 : Fin 2)) rfl (ix1 (0 : Fin 1))
    (fun b => by match b with | ⟨0, _⟩ => rfl)).trans ?_
  exact broadcastInDim_apply _ bcast_S_S1 a (ix1 (0 : Fin 1)) ix0 (fun a => a.elim0)

/-- Entry (0, 1) of the pair is the second scalar. -/
theorem coefArr_right (a b : (⟨S_, .f32⟩ : BufTy).Contents (Elt F)) : coefArr a b (ix2 (0 : Fin 1) (1 : Fin 2)) = b ix0 := by
  unfold coefArr
  refine (shapeCast_apply _ shapeCasts_S2_S1x2 (ix2 (0 : Fin 1) (1 : Fin 2)) (ix1 (1 : Fin 2))
    (by rw [Shape.rowMajor_val_two, Shape.rowMajor_val_one]; rfl)).trans ?_
  refine (concatenate_pair_apply_right (t := S2) (s₁ := S1) (s₂ := S1) (0 : Fin 1) _ _ concatenates_S1_S1_S2_d0 (ix1 (1 : Fin 2)) rfl rfl (ix1 (0 : Fin 1))
    (fun b hb => by match b with | ⟨0, _⟩ => exact absurd rfl hb) rfl).trans ?_
  exact broadcastInDim_apply _ bcast_S_S1 b (ix1 (0 : Fin 1)) ix0 (fun a => a.elim0)

/-! ## What each stretch leaves alone -/

theorem keep0_arg0 : after (hostOps0 (F := F)) W (Proc.devRef .tc main_arg0) = W (Proc.devRef .tc main_arg0) := by after_results
theorem keep0_arg2 : after (hostOps0 (F := F)) W (Proc.devRef .tc main_arg2) = W (Proc.devRef .tc main_arg2) := by after_results
theorem keep0_arg3 : after (hostOps0 (F := F)) W (Proc.devRef .tc main_arg3) = W (Proc.devRef .tc main_arg3) := by after_results

theorem keep01_v0 : after (hostOps0_1 (F := F)) W (Proc.devRef .tc main_v0) = W (Proc.devRef .tc main_v0) := by after_results_simp <;> rfl
theorem keep01_arg0 : after (hostOps0_1 (F := F)) W (Proc.devRef .tc main_arg0) = W (Proc.devRef .tc main_arg0) := by after_results_simp <;> rfl
theorem keep01_arg2 : after (hostOps0_1 (F := F)) W (Proc.devRef .tc main_arg2) = W (Proc.devRef .tc main_arg2) := by after_results_simp <;> rfl
theorem keep01_arg3 : after (hostOps0_1 (F := F)) W (Proc.devRef .tc main_arg3) = W (Proc.devRef .tc main_arg3) := by after_results_simp <;> rfl

theorem keep1_v22 : after (hostOps1 (F := F)) W (Proc.devRef .tc main_v22) = W (Proc.devRef .tc main_v22) := by after_results_simp <;> rfl
theorem keep1_v9 : after (hostOps1 (F := F)) W (Proc.devRef .tc main_v9) = W (Proc.devRef .tc main_v9) := by after_results_simp <;> rfl
theorem keep1_arg2 : after (hostOps1 (F := F)) W (Proc.devRef .tc main_arg2) = W (Proc.devRef .tc main_arg2) := by after_results_simp <;> rfl
theorem keep1_arg3 : after (hostOps1 (F := F)) W (Proc.devRef .tc main_arg3) = W (Proc.devRef .tc main_arg3) := by after_results_simp <;> rfl
theorem keep1_v0 : after (hostOps1 (F := F)) W (Proc.devRef .tc main_v0) = W (Proc.devRef .tc main_v0) := by after_results_simp <;> rfl

theorem keep2_v35 : after (hostOps2 (F := F)) W (Proc.devRef .tc main_v35) = W (Proc.devRef .tc main_v35) := by after_results_simp <;> rfl
theorem keep2_v9 : after (hostOps2 (F := F)) W (Proc.devRef .tc main_v9) = W (Proc.devRef .tc main_v9) := by after_results_simp <;> rfl
theorem keep2_v0 : after (hostOps2 (F := F)) W (Proc.devRef .tc main_v0) = W (Proc.devRef .tc main_v0) := by after_results_simp <;> rfl

theorem keep3_v35 : after (hostOps3 (F := F)) W (Proc.devRef .tc main_v35) = W (Proc.devRef .tc main_v35) := by after_results_simp <;> rfl
theorem keep3_v48 : after (hostOps3 (F := F)) W (Proc.devRef .tc main_v48) = W (Proc.devRef .tc main_v48) := by after_results_simp <;> rfl

end Cert.KernelIdeal.Bern

end
-- ==== Proof.KValue.lean ====
/-
  The kernel program's result as one function of its four arguments.

  From the features `x0`, the weights `x1` and the edge lists `x2` (sources) and `x3` (targets): with `D`
  the degree scaling of the targets, the first iterate is one propagation step of the features and
  their neighbour sum, the second iterate one step of the first iterate and ITS neighbour sum, the
  Laplacian term the step with multiplier `-1` of the second iterate and its neighbour sum, and the
  result the mix of the second iterate and the Laplacian term with the two coefficients made from the
  weights. Each piece is a whole-array function the regions were shown to compute; the neighbour
  sums and the scaling are the reference's own stages, left closed.
-/
import proofs.«125538_j6124623364542_1_alg».proof.Proof.Step0
import proofs.«125538_j6124623364542_1_alg».proof.Proof.Mix
import proofs.«125538_j6124623364542_1_alg».proof.Proof.HostSide

noncomputable section

namespace Cert.KernelIdeal.Bern

open Cert.KernelIdeal Idealize.ShloMosaic Idealize.ShloMosaic.TcCoe Idealize.SL.Sem

variable {F : FTy → Type} [FloatOps F]
variable (x0 : (⟨S50000x32, .f32⟩ : BufTy).Contents (Elt F)) (x1 : (⟨S3, .f32⟩ : BufTy).Contents (Elt F))
  (x2 x3 : (⟨S1600000, .i32⟩ : BufTy).Contents (Elt F))

/-- The first iterate: the features plus their scaled neighbour sum. -/
def iter1 : S50000x32.Idx → Elt F .f32 :=
  stepArr (Scalar.ofBits .f32 0x3F800000#32) x0
    (Cert.ReferenceIdeal.Bern.nbrSum x0 (Cert.ReferenceIdeal.Read.val_main_v9 x3) x2 x3) (Cert.ReferenceIdeal.Read.val_main_v9 x3)

/-- The second iterate: the first iterate plus its scaled neighbour sum. -/
def iter2 : S50000x32.Idx → Elt F .f32 :=
  stepArr (Scalar.ofBits .f32 0x3F800000#32) (iter1 x0 x2 x3)
    (Cert.ReferenceIdeal.Bern.nbrSum (iter1 x0 x2 x3) (Cert.ReferenceIdeal.Read.val_main_v9 x3) x2 x3) (Cert.ReferenceIdeal.Read.val_main_v9 x3)

/-- The Laplacian term: the second iterate minus its scaled neighbour sum, spelt with the multiplier `-1`. -/
def lapl : S50000x32.Idx → Elt F .f32 :=
  stepArr (Scalar.ofBits .f32 0xBF800000#32) (iter2 x0 x2 x3)
    (Cert.ReferenceIdeal.Bern.nbrSum (iter2 x0 x2 x3) (Cert.ReferenceIdeal.Read.val_main_v9 x3) x2 x3) (Cert.ReferenceIdeal.Read.val_main_v9 x3)

/-- The result: the mix of the second iterate and the Laplacian term. -/
def resultK : S50000x32.Idx → Elt F .f32 :=
  mixArr (coefArr (coef0 (Cert.ReferenceIdeal.Read.val_main_v0 x1)) (coef1 (Cert.ReferenceIdeal.Read.val_main_v0 x1)))
    (iter2 x0 x2 x3) (lapl x0 x2 x3)

end Cert.KernelIdeal.Bern

end
-- ==== Proof.Walk.lean ====
/-
  The walk: what the kernel program's result buffer holds at the end, from the launch memory.

  The run's buffer contents at each boundary are a fold: a host stretch applies its operations, a
  region replaces its arrays by what its blocks leave. Reading the fold forward — the features, the
  edge lists and the weights survive every stretch that does not write them and every region that
  only reads them; each neighbour sum is taken of the array the previous region left; each region's
  output is the step (or the mix) of the arrays it was entered with — the result buffer ends at the
  one function `resultK` of the four arguments.
-/
import proofs.«125538_j6124623364542_1_alg».proof.Proof.Gen.KernelIdeal.Frame
import proofs.«125538_j6124623364542_1_alg».proof.Proof.Step0
import proofs.«125538_j6124623364542_1_alg».proof.Proof.Step1
import proofs.«125538_j6124623364542_1_alg».proof.Proof.Step2
import proofs.«125538_j6124623364542_1_alg».proof.Proof.Mix
import proofs.«125538_j6124623364542_1_alg».proof.Proof.HostSide
import proofs.«125538_j6124623364542_1_alg».proof.Proof.KValue

noncomputable section

namespace Cert.KernelIdeal.Bern

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## Entering the first region -/

theorem in0_arg0 : W2 m ρ c (Proc.devRef .tc main_arg0) = m ((c : Thread nD τ).loc main_arg0) :=
  (keep01_arg0 (W1 m ρ c)).trans (keep0_arg0 (W0 m ρ c))
theorem in0_arg2 : W2 m ρ c (Proc.devRef .tc main_arg2) = m ((c : Thread nD τ).loc main_arg2) :=
  (keep01_arg2 (W1 m ρ c)).trans (keep0_arg2 (W0 m ρ c))
theorem in0_arg3 : W2 m ρ c (Proc.devRef .tc main_arg3) = m ((c : Thread nD τ).loc main_arg3) :=
  (keep01_arg3 (W1 m ρ c)).trans (keep0_arg3 (W0 m ρ c))
theorem in0_v0 : W2 m ρ c (Proc.devRef .tc main_v0) = Cert.ReferenceIdeal.Read.val_main_v0 (m ((c : Thread nD τ).loc main_arg1)) :=
  (keep01_v0 (W1 m ρ c)).trans (relu_at (W0 m ρ c))
theorem in0_v9 : W2 m ρ c (Proc.devRef .tc main_v9) = Cert.ReferenceIdeal.Read.val_main_v9 (m ((c : Thread nD τ).loc main_arg3)) :=
  (scale_at (W1 m ρ c)).trans (congrArg Cert.ReferenceIdeal.Read.val_main_v9 (keep0_arg3 (W0 m ρ c)))
theorem in0_v21 : W2 m ρ c (Proc.devRef .tc main_v21)
    = Cert.ReferenceIdeal.Bern.nbrSum (m ((c : Thread nD τ).loc main_arg0)) (Cert.ReferenceIdeal.Read.val_main_v9 (m ((c : Thread nD τ).loc main_arg3)))
        (m ((c : Thread nD τ).loc main_arg2)) (m ((c : Thread nD τ).loc main_arg3)) := by
  have h0 : W1 m ρ c (Proc.devRef .tc main_arg0) = m ((c : Thread nD τ).loc main_arg0) := keep0_arg0 (W0 m ρ c)
  have h2 : W1 m ρ c (Proc.devRef .tc main_arg2) = m ((c : Thread nD τ).loc main_arg2) := keep0_arg2 (W0 m ρ c)
  have h3 : W1 m ρ c (Proc.devRef .tc main_arg3) = m ((c : Thread nD τ).loc main_arg3) := keep0_arg3 (W0 m ρ c)
  refine (sum0_at (W1 m ρ c)).trans ?_
  rw [h0, h2, h3]

/-! ## Leaving the first region -/

theorem out0_v22 : W3 m ρ c (Proc.devRef .tc main_v22)
    = iter1 (m ((c : Thread nD τ).loc main_arg0)) (m ((c : Thread nD τ).loc main_arg2)) (m ((c : Thread nD τ).loc main_arg3)) := by
  refine ((W3_arr m ρ c 3).trans (value0 (V2 m ρ) c)).trans ?_
  show stepArr _ (W2 m ρ c (Proc.devRef .tc main_arg0)) (W2 m ρ c (Proc.devRef .tc main_v21)) (W2 m ρ c (Proc.devRef .tc main_v9)) = _
  rw [in0_arg0, in0_v21, in0_v9]
  rfl
theorem out0_v9 : W3 m ρ c (Proc.devRef .tc main_v9) = Cert.ReferenceIdeal.Read.val_main_v9 (m ((c : Thread nD τ).loc main_arg3)) :=
  ((W3_arr m ρ c 2).trans (((dat0 (V2 m ρ) c).arrAt_in 2 rfl _).trans (A_eq0 (V2 m ρ) c 2))).trans (in0_v9 m ρ c)
theorem out0_arg2 : W3 m ρ c (Proc.devRef .tc main_arg2) = m ((c : Thread nD τ).loc main_arg2) :=
  (W3_of_ne m ρ c main_arg2 (by decide)).trans (in0_arg2 m ρ c)
theorem out0_arg3 : W3 m ρ c (Proc.devRef .tc main_arg3) = m ((c : Thread nD τ).loc main_arg3) :=
  (W3_of_ne m ρ c main_arg3 (by decide)).trans (in0_arg3 m ρ c)
theorem out0_v0 : W3 m ρ c (Proc.devRef .tc main_v0) = Cert.ReferenceIdeal.Read.val_main_v0 (m ((c : Thread nD τ).loc main_arg1)) :=
  (W3_of_ne m ρ c main_v0 (by decide)).trans (in0_v0 m ρ c)

/-! ## Entering and leaving the second region -/

theorem in1_v22 : W4 m ρ c (Proc.devRef .tc main_v22)
    = iter1 (m ((c : Thread nD τ).loc main_arg0)) (m ((c : Thread nD τ).loc main_arg2)) (m ((c : Thread nD τ).loc main_arg3)) :=
  (keep1_v22 (W3 m ρ c)).trans (out0_v22 m ρ c)
theorem in1_v9 : W4 m ρ c (Proc.devRef .tc main_v9) = Cert.ReferenceIdeal.Read.val_main_v9 (m ((c : Thread nD τ).loc main_arg3)) :=
  (keep1_v9 (W3 m ρ c)).trans (out0_v9 m ρ c)
theorem in1_arg2 : W4 m ρ c (Proc.devRef .tc main_arg2) = m ((c : Thread nD τ).loc main_arg2) :=
  (keep1_arg2 (W3 m ρ c)).trans (out0_arg2 m ρ c)
theorem in1_arg3 : W4 m ρ c (Proc.devRef .tc main_arg3) = m ((c : Thread nD τ).loc main_arg3) :=
  (keep1_arg3 (W3 m ρ c)).trans (out0_arg3 m ρ c)
theorem in1_v0 : W4 m ρ c (Proc.devRef .tc main_v0) = Cert.ReferenceIdeal.Read.val_main_v0 (m ((c : Thread nD τ).loc main_arg1)) :=
  (keep1_v0 (W3 m ρ c)).trans (out0_v0 m ρ c)
theorem in1_v34 : W4 m ρ c (Proc.devRef .tc main_v34)
    = Cert.ReferenceIdeal.Bern.nbrSum (iter1 (m ((c : Thread nD τ).loc main_arg0)) (m ((c : Thread nD τ).loc main_arg2)) (m ((c : Thread nD τ).loc main_arg3)))
        (Cert.ReferenceIdeal.Read.val_main_v9 (m ((c : Thread nD τ).loc main_arg3))) (m ((c : Thread nD τ).loc main_arg2)) (m ((c : Thread nD τ).loc main_arg3)) := by
  refine (sum1_at (W3 m ρ c)).trans ?_
  rw [out0_v22, out0_v9, out0_arg2, out0_arg3]

theorem out1_v35 : W5 m ρ c (Proc.devRef .tc main_v35)
    = iter2 (m ((c : Thread nD τ).loc main_arg0)) (m ((c : Thread nD τ).loc main_arg2)) (m ((c : Thread nD τ).loc main_arg3)) := by
  refine ((W5_arr m ρ c 3).trans (value1 (V4 m ρ) c)).trans ?_
  show stepArr _ (W4 m ρ c (Proc.devRef .tc main_v22)) (W4 m ρ c (Proc.devRef .tc main_v34)) (W4 m ρ c (Proc.devRef .tc main_v9)) = _
  rw [in1_v22, in1_v34, in1_v9]
  rfl
theorem out1_v9 : W5 m ρ c (Proc.devRef .tc main_v9) = Cert.ReferenceIdeal.Read.val_main_v9 (m ((c : Thread nD τ).loc main_arg3)) :=
  ((W5_arr m ρ c 2).trans (((dat1 (V4 m ρ) c).arrAt_in 2 rfl _).trans (A_eq1 (V4 m ρ) c 2))).trans (in1_v9 m ρ c)
theorem out1_arg2 : W5 m ρ c (Proc.devRef .tc main_arg2) = m ((c : Thread nD τ).loc main_arg2) :=
  (W5_of_ne m ρ c main_arg2 (by decide)).trans (in1_arg2 m ρ c)
theorem out1_arg3 : W5 m ρ c (Proc.devRef .tc main_arg3) = m ((c : Thread nD τ).loc main_arg3) :=
  (W5_of_ne m ρ c main_arg3 (by decide)).trans (in1_arg3 m ρ c)
theorem out1_v0 : W5 m ρ c (Proc.devRef .tc main_v0) = Cert.ReferenceIdeal.Read.val_main_v0 (m ((c : Thread nD τ).loc main_arg1)) :=
  (W5_of_ne m ρ c main_v0 (by decide)).trans (in1_v0 m ρ c)

/-! ## Entering and leaving the third region -/

theorem in2_v35 : W6 m ρ c (Proc.devRef .tc main_v35)
    = iter2 (m ((c : Thread nD τ).loc main_arg0)) (m ((c : Thread nD τ).loc main_arg2)) (m ((c : Thread nD τ).loc main_arg3)) :=
  (keep2_v35 (W5 m ρ c)).trans (out1_v35 m ρ c)
theorem in2_v9 : W6 m ρ c (Proc.devRef .tc main_v9) = Cert.ReferenceIdeal.Read.val_main_v9 (m ((c : Thread nD τ).loc main_arg3)) :=
  (keep2_v9 (W5 m ρ c)).trans (out1_v9 m ρ c)
theorem in2_v0 : W6 m ρ c (Proc.devRef .tc main_v0) = Cert.ReferenceIdeal.Read.val_main_v0 (m ((c : Thread nD τ).loc main_arg1)) :=
  (keep2_v0 (W5 m ρ c)).trans (out1_v0 m ρ c)
theorem in2_v47 : W6 m ρ c (Proc.devRef .tc main_v47)
    = Cert.ReferenceIdeal.Bern.nbrSum (iter2 (m ((c : Thread nD τ).loc main_arg0)) (m ((c : Thread nD τ).loc main_arg2)) (m ((c : Thread nD τ).loc main_arg3)))
        (Cert.ReferenceIdeal.Read.val_main_v9 (m ((c : Thread nD τ).loc main_arg3))) (m ((c : Thread nD τ).loc main_arg2)) (m ((c : Thread nD τ).loc main_arg3)) := by
  refine (sum2_at (W5 m ρ c)).trans ?_
  rw [out1_v35, out1_v9, out1_arg2, out1_arg3]

theorem out2_v48 : W7 m ρ c (Proc.devRef .tc main_v48)
    = lapl (m ((c : Thread nD τ).loc main_arg0)) (m ((c : Thread nD τ).loc main_arg2)) (m ((c : Thread nD τ).loc main_arg3)) := by
  refine ((W7_arr m ρ c 3).trans (value2 (V6 m ρ) c)).trans ?_
  show stepArr _ (W6 m ρ c (Proc.devRef .tc main_v35)) (W6 m ρ c (Proc.devRef .tc main_v47)) (W6 m ρ c (Proc.devRef .tc main_v9)) = _
  rw [in2_v35, in2_v47, in2_v9]
  rfl
theorem out2_v35 : W7 m ρ c (Proc.devRef .tc main_v35)
    = iter2 (m ((c : Thread nD τ).loc main_arg0)) (m ((c : Thread nD τ).loc main_arg2)) (m ((c : Thread nD τ).loc main_arg3)) :=
  ((W7_arr m ρ c 0).trans (((dat2 (V6 m ρ) c).arrAt_in 0 rfl _).trans (A_eq2 (V6 m ρ) c 0))).trans (in2_v35 m ρ c)
theorem out2_v0 : W7 m ρ c (Proc.devRef .tc main_v0) = Cert.ReferenceIdeal.Read.val_main_v0 (m ((c : Thread nD τ).loc main_arg1)) :=
  (W7_of_ne m ρ c main_v0 (by decide)).trans (in2_v0 m ρ c)

/-! ## Entering and leaving the last region -/

theorem in3_v35 : W8 m ρ c (Proc.devRef .tc main_v35)
    = iter2 (m ((c : Thread nD τ).loc main_arg0)) (m ((c : Thread nD τ).loc main_arg2)) (m ((c : Thread nD τ).loc main_arg3)) :=
  (keep3_v35 (W7 m ρ c)).trans (out2_v35 m ρ c)
theorem in3_v48 : W8 m ρ c (Proc.devRef .tc main_v48)
    = lapl (m ((c : Thread nD τ).loc main_arg0)) (m ((c : Thread nD τ).loc main_arg2)) (m ((c : Thread nD τ).loc main_arg3)) :=
  (keep3_v48 (W7 m ρ c)).trans (out2_v48 m ρ c)
theorem in3_v63 : W8 m ρ c (Proc.devRef .tc main_v63)
    = coefArr (coef0 (Cert.ReferenceIdeal.Read.val_main_v0 (m ((c : Thread nD τ).loc main_arg1)))) (coef1 (Cert.ReferenceIdeal.Read.val_main_v0 (m ((c : Thread nD τ).loc main_arg1)))) := by
  refine (coef_at (W7 m ρ c)).trans ?_
  rw [out2_v0]

/-- The result buffer after the whole run, from the launch memory. -/
theorem result_at : W9 m ρ c (Proc.devRef .tc main_v64)
    = resultK (m ((c : Thread nD τ).loc main_arg0)) (m ((c : Thread nD τ).loc main_arg1)) (m ((c : Thread nD τ).loc main_arg2)) (m ((c : Thread nD τ).loc main_arg3)) := by
  refine ((W9_arr m ρ c 3).trans (value3 (V8 m ρ) c)).trans ?_
  show mixArr (W8 m ρ c (Proc.devRef .tc main_v63)) (W8 m ρ c (Proc.devRef .tc main_v35)) (W8 m ρ c (Proc.devRef .tc main_v48)) = _
  rw [in3_v63, in3_v35, in3_v48]
  rfl

end Cert.KernelIdeal.Bern

end
-- ==== Proof.Run.lean ====
/-
  The kernel program's run with its result named.

  The program is nine segments — five stretches of host operations and four Pallas regions — and its
  run is the launch of those segments in order: every weakly fair execution terminates without a
  fault, and at the end every buffer the TensorCore holds is at the last boundary's contents. Read at
  the result buffer those contents are, by the walk, the one function `resultK` of the four argument
  arrays; read at the arguments they are the arrays as launched.
-/
import proofs.«125538_j6124623364542_1_alg».proof.Proof.Gen.KernelIdeal.Frame
import proofs.«125538_j6124623364542_1_alg».proof.Proof.Walk

set_option maxRecDepth 16384

noncomputable section

namespace Cert.KernelIdeal.Bern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the four argument arrays as launched. -/
theorem run_last : θ_run defs (onTc (τ := τ) (main (F := F))) ⟨m, fun _ => 0, ρ⟩ (fun r => ∀ c : Dev nD,
      r.2.mem ((c.tc : Thread nD τ).loc main_v64) = W9 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v64 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

/-- The run with the result as a function of the arguments. -/
theorem run_result : θ_run defs (onTc (τ := τ) (main (F := F))) ⟨m, fun _ => 0, ρ⟩ (fun r => ∀ c : Dev nD,
      r.2.mem ((c.tc : Thread nD τ).loc main_v64)
        = resultK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_at m ρ c), (h c).2⟩) (run_last m ρ)

end Cert.KernelIdeal.Bern

end
-- ==== Proof.Bridge.lean ====
/-
  The two programs compute one function: the comparison, entry by entry, on the extended reals.

  The reference's stages are the kernel's pieces. Its first iterate is `x0 + s * D` where the
  kernel's is `x0 + 1 * (s * D)` (`s` the neighbour sum, `D` the scaling at the entry's row); so is the
  second, of the first; its Laplacian term is `f - s * D` where the kernel's is `f + (-1) * (s * D)`.
  Once two arrays are known equal, their neighbour sums are equal: the sum is the same closed
  function on both sides. The last stage adds `((1/4) w0) f`, `((1/2) w1) L` and `((1/4) w2) L` in turn,
  where the kernel forms `((1/4) w0) f + ((1/4) (2 w1 + 1 w2)) L`; the weights are entries of
  `max (w, 0)`, hence nonnegative, which is all the distributive law on the extended reals asks — no
  entry of any array needs to be finite.
-/
import proofs.«125538_j6124623364542_1_alg».proof.Proof.KValue
import proofs.«125538_j6124623364542_1_alg».proof.Proof.Spec
import proofs.«125538_j6124623364542_1_alg».proof.Proof.Scalar
import Idealize.ShloMosaic.Lib.Pipeline.Value
import Idealize.ShloMosaic.Lib.ValueIdx

noncomputable section

namespace Cert.KernelIdeal.Bern

open Cert.KernelIdeal Idealize.ShloMosaic Idealize.ShloMosaic.TcCoe Idealize.SL.Sem
open Idealize.ShloMosaic.ValueIdx
open Cert.ReferenceIdeal.Read Cert.ReferenceIdeal.Bern Cert.BernLaws

variable (x0 : (⟨S50000x32, .f32⟩ : BufTy).Contents (Elt Ideal)) (x1 : (⟨S3, .f32⟩ : BufTy).Contents (Elt Ideal))
  (x2 x3 : (⟨S1600000, .i32⟩ : BufTy).Contents (Elt Ideal))

/-! ## The weights are nonnegative -/

/-- Every entry of `max (w, 0)` is nonnegative. -/
theorem relu_nonneg (k : Cert.ReferenceIdeal.S3.Idx) : (0 : EReal) ≤ val_main_v0 (F := Ideal) x1 k := by
  rw [val_main_v0_apply, val_main_call0_v0_apply, val_main_call0_cst_apply]
  show (0 : EReal) ≤ max (x1 k) (Ideal.ofBits .f32 0x00000000#32)
  rw [word_zero]
  exact le_max_right _ _

/-- The second weight, read out as a scalar. -/
theorem weight1_nonneg : (0 : EReal) ≤ val_main_v61 (F := Ideal) x1 ix0 := by
  unfold val_main_v61
  rw [shapeCast_apply (val_main_v60 (F := Ideal) x1) Cert.ReferenceIdeal.Gen.shapeCasts_S1_S_ ix0 (ix1 (0 : Fin 1))
    (by rw [Shape.rowMajor_val_one]; exact (Shape.rowMajorPi_zero _ _).symm), val_main_v60_apply]
  exact relu_nonneg x1 _

/-- The third weight, read out as a scalar. -/
theorem weight2_nonneg : (0 : EReal) ≤ val_main_v67 (F := Ideal) x1 ix0 := by
  unfold val_main_v67
  rw [shapeCast_apply (val_main_v66 (F := Ideal) x1) Cert.ReferenceIdeal.Gen.shapeCasts_S1_S_ ix0 (ix1 (0 : Fin 1))
    (by rw [Shape.rowMajor_val_one]; exact (Shape.rowMajorPi_zero _ _).symm), val_main_v66_apply]
  exact relu_nonneg x1 _

/-! ## The three steps -/

/-- The kernel's first iterate is the reference's. -/
theorem iter1_eq : iter1 (F := Ideal) x0 x2 x3 = val_main_v24 x0 x2 x3 := by
  funext i
  unfold iter1 stepArr
  rw [val_main_v24_apply, val_main_v23_apply, val_main_v22_apply, sum0]
  show (x0 i : EReal) + Ideal.ofBits .f32 0x3F800000#32 * (nbrSum x0 (val_main_v9 x3) x2 x3 i * val_main_v9 (F := Ideal) x3 (idx_main_v22 i))
    = x0 i + nbrSum x0 (val_main_v9 x3) x2 x3 i * val_main_v9 (F := Ideal) x3 (idx_main_v22 i)
  rw [word_one]
  exact step_add _ _ _

/-- The kernel's second iterate is the reference's. -/
theorem iter2_eq : iter2 (F := Ideal) x0 x2 x3 = val_main_v39 x0 x2 x3 := by
  funext i
  unfold iter2 stepArr
  rw [iter1_eq, val_main_v39_apply, val_main_v38_apply, val_main_v37_apply, sum1]
  show (val_main_v24 (F := Ideal) x0 x2 x3 i : EReal) + Ideal.ofBits .f32 0x3F800000#32 * (nbrSum (val_main_v24 x0 x2 x3) (val_main_v9 x3) x2 x3 i * val_main_v9 (F := Ideal) x3 (idx_main_v37 i))
    = val_main_v24 (F := Ideal) x0 x2 x3 i + nbrSum (val_main_v24 x0 x2 x3) (val_main_v9 x3) x2 x3 i * val_main_v9 (F := Ideal) x3 (idx_main_v37 i)
  rw [word_one]
  exact step_add _ _ _

/-- The kernel's Laplacian term is the reference's. -/
theorem lapl_eq : lapl (F := Ideal) x0 x2 x3 = val_main_v54 x0 x2 x3 := by
  funext i
  unfold lapl stepArr
  rw [iter2_eq, val_main_v54_apply, val_main_v53_apply, val_main_v52_apply, sum2]
  show (val_main_v39 (F := Ideal) x0 x2 x3 i : EReal) + Ideal.ofBits .f32 0xBF800000#32 * (nbrSum (val_main_v39 x0 x2 x3) (val_main_v9 x3) x2 x3 i * val_main_v9 (F := Ideal) x3 (idx_main_v52 i))
    = val_main_v39 (F := Ideal) x0 x2 x3 i - nbrSum (val_main_v39 x0 x2 x3) (val_main_v9 x3) x2 x3 i * val_main_v9 (F := Ideal) x3 (idx_main_v52 i)
  rw [word_neg_one]
  exact step_sub _ _ _

/-! ## The mix -/

/-- The kernel program's result is the reference's last stage. -/
theorem result_eq : resultK (F := Ideal) x0 x1 x2 x3 = val_main_v71 x0 x1 x2 x3 := by
  funext i
  unfold resultK mixArr
  rw [coefArr_left, coefArr_right, iter2_eq, lapl_eq]
  rw [val_main_v71_apply, val_main_v65_apply, val_main_v59_apply, val_main_v58_apply, val_main_v57_apply, val_main_v64_apply,
    val_main_v63_apply, val_main_v62_apply, val_main_v70_apply, val_main_v69_apply, val_main_v68_apply]
  show (Ideal.ofBits .f32 0x3E800000#32 * val_main_v56 (F := Ideal) x1 ix0) * (val_main_v39 (F := Ideal) x0 x2 x3 i : EReal)
      + (Ideal.ofBits .f32 0x3E800000#32 * (Ideal.ofBits .f32 0x40000000#32 * val_main_v61 (F := Ideal) x1 ix0
          + Ideal.ofBits .f32 0x3F800000#32 * val_main_v67 (F := Ideal) x1 ix0)) * (val_main_v54 (F := Ideal) x0 x2 x3 i : EReal)
    = ((Ideal.ofBits .f32 0x3E800000#32 * val_main_v56 (F := Ideal) x1 ix0) * (val_main_v39 (F := Ideal) x0 x2 x3 i : EReal)
        + (Ideal.ofBits .f32 0x3F000000#32 * val_main_v61 (F := Ideal) x1 ix0) * (val_main_v54 (F := Ideal) x0 x2 x3 i : EReal))
      + (Ideal.ofBits .f32 0x3E800000#32 * val_main_v67 (F := Ideal) x1 ix0) * (val_main_v54 (F := Ideal) x0 x2 x3 i : EReal)
  rw [word_quarter, word_two, word_one, word_half]
  exact mix _ _ _ _ _ (weight1_nonneg x1) (weight2_nonneg x1)

end Cert.KernelIdeal.Bern

end
-- ==== Proof.lean ====
/-
  Two-step polynomial graph propagation: the Pallas program against its jnp reference, on the extended reals.

  With `D = max (indegree, 1) ^ (-1/2)` (one entry per node, from the edge targets) and `S (f)` the
  neighbour sum of a feature array `f` (rows scaled by `D`, gathered at the edge sources, added at the
  edge targets), both programs form

      f1 = x + S (x) * D,    f2 = f1 + S (f1) * D,    L = f2 - S (f2) * D,

  and return a mix of `f2` and `L` weighted by `w = max (weight, 0)`: the reference adds
  `((1/4) w0) f2`, `((1/2) w1) L` and `((1/4) w2) L` in turn; the kernel program computes the three
  updates and the mix in four Pallas regions of ten 5000-row blocks each, spelling the updates
  `p + 1 * (s * D)` and `p + (-1) * (s * D)` and the mix `((1/4) w0) f2 + ((1/4) (2 w1 + 1 w2)) L`.
  The scaling and the neighbour sums are the same host operations in both programs and stay closed.

  * Each region's ten blocks tile its output array, and what a block receives does not depend on
    the block: after a region its output is one whole-array function of the arrays it was entered
    with (Proof/Step0, Step1, Step2, Mix).
  * Walking the run's buffer contents from the launch through the five host stretches and the four
    regions, the result buffer ends at one function of the four arguments (Proof/HostSide, KValue,
    Walk, Run).
  * Entry by entry that function is the reference's last stage: `1 * y = y`, `(-1) * y = -y`, and
    `(a + b) * y = a * y + b * y` for NONNEGATIVE `a`, `b` and every extended real `y` — the weights are
    nonnegative because they are `max`ed against zero (Proof/Scalar, Spec, Bridge). The precondition
    that the inputs are finite is never opened.

  The three frames are the generated ones (the reference's is its generated run with the result
  dropped); the idealization rewrote nothing, so `preserves` is `True`.
-/
import proofs.«125538_j6124623364542_1_alg».proof.Defs
import proofs.«125538_j6124623364542_1_alg».proof.Proof.Gen.Kernel
import proofs.«125538_j6124623364542_1_alg».proof.Proof.Gen.Kernel.Frame
import proofs.«125538_j6124623364542_1_alg».proof.Proof.Gen.KernelIdeal
import proofs.«125538_j6124623364542_1_alg».proof.Proof.Gen.KernelIdeal.Frame
import proofs.«125538_j6124623364542_1_alg».proof.Proof.Gen.ReferenceIdeal
import proofs.«125538_j6124623364542_1_alg».proof.Proof.Gen.Pre_finite_inputs
import proofs.«125538_j6124623364542_1_alg».proof.Proof.Gen.ReferenceIdeal.Run
import proofs.«125538_j6124623364542_1_alg».proof.Proof.Gen.ReferenceIdeal.Read
import proofs.«125538_j6124623364542_1_alg».proof.Proof.Run
import proofs.«125538_j6124623364542_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no region: its frame is its run with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments the kernel program's result buffer ends at its one function of the
    arguments and the reference's at its last stage of the same arguments: equal arrays. -/
theorem algebraic : Cert.algebraic_KernelIdeal_ReferenceIdeal := by
  intro m ρ m' ρ' _ hagree
  refine ⟨_, Cert.KernelIdeal.Bern.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2]
  exact (Cert.KernelIdeal.Bern.result_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
